-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S10000x128 : Shape := ⟨2, ![10000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 43
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.BlockProduct.lean ====
/-
  The two kernel bodies at the extended reals, entry by entry.

  Both bodies multiply a block of 10000 rows (128 columns) by a 128 × 128 weight matrix into a zero accumulator; the
  roundings to the narrow format on the way in are the identity on the extended reals. So entry (p, q) of what a body
  stores is the sum over the contracted coordinate c of (row p, column c) · (weight row c, column q); the second body
  first clamps every entry of its row block below at zero.
-/
import proofs.«141415_j5342939316652_2_alg».proof.Proof.Gen.KernelIdeal.Skeleton
import proofs.«141415_j5342939316652_2_alg».proof.Proof.LibPlainMatmul
import Idealize.ShloMosaic.Lib.ValueIdx
import Idealize.ShloMosaic.Lib.Pipeline.Value

noncomputable section

namespace Cert.KernelIdeal.BlockProduct

open Idealize.ShloMosaic Idealize.ShloMosaic.ValueIdx Cert.KernelIdeal Cert.KernelIdeal.Gen

/-- The bodies' contraction is the plain rows-by-columns product of a 10000 × 128 block by a 128 × 128 matrix. -/
theorem dims_plain : dot_S10000x128_S128x128_S10000x128_1_0_0_1_n_n = DotDims.plain 10000 128 128 := rfl

/-- Entry (p, q) of the first body's stored block: the row-p by column-q inner product. -/
theorem first_apply (x : Vec Ideal S10000x128 .f32) (w : Vec Ideal S128x128 .f32) (p : Fin 10000) (q : Fin 128) :
    k0_pay1 (F := Ideal) x w (ix2 p q) = ∑ c : Fin 128, x (ix2 p c) * w (ix2 c q) := by
  unfold k0_pay1
  rw [dims_plain]
  exact Cert.LibPlainMatmul.matmul_plain_zero_apply none _ _ p q

/-- Entry (p, q) of the second body's stored block: the same inner product of the row clamped below at zero. -/
theorem second_apply (x : Vec Ideal S10000x128 .f32) (w : Vec Ideal S128x128 .f32) (p : Fin 10000) (q : Fin 128) :
    k1_pay1 (F := Ideal) x w (ix2 p q)
      = ∑ c : Fin 128, max (x (ix2 p c)) (Ideal.ofBits .f32 0x00000000#32) * w (ix2 c q) := by
  unfold k1_pay1
  rw [dims_plain, shapeCast_self]
  exact Cert.LibPlainMatmul.matmul_plain_zero_apply none _ _ p q

/-! ## A block of the whole product

The whole layer is the product of the 100000 × 128 array by the weights; block n of it is rows n·10000 … n·10000 + 9999.
A body that is handed those rows and the whole weight matrix stores exactly that block. -/

/-- The product of the whole 100000 × 128 array by the 128 × 128 weights, as one array. -/
abbrev dense (X : FVec Ideal S100000x128 .f32) (W : FVec Ideal S128x128 .f32) : FVec Ideal S100000x128 .f32 :=
  Host.dotGeneral (DotDims.plain 100000 128 128) none X W

/-- Every entry clamped below at zero, as the host writes it: the maximum with a splat of the zero constant. -/
abbrev clamp (Y : FVec Ideal S100000x128 .f32) : FVec Ideal S100000x128 .f32 :=
  maximumf Y (broadcastInDim S100000x128 ![] bcast_S_S100000x128 (constant S_ .f32 0x00000000#32))

/-- The first body, on rows n·10000 … of `X` and on the weights `W`, stores block n of `dense X W`. -/
theorem first_block (X : FVec Ideal S100000x128 .f32) (W : FVec Ideal S128x128 .f32)
    (x0 : Vec Ideal S10000x128 .f32) (x1 : Vec Ideal S128x128 .f32) (n : Nat)
    (hx : ∀ (y : S10000x128.Idx) (i : S100000x128.Idx), (i 0).val = n * 10000 + (y 0).val → (i 1).val = (y 1).val → x0 y = X i)
    (hw : ∀ y : S128x128.Idx, x1 y = W y)
    (y : S10000x128.Idx) (i : S100000x128.Idx) (h0 : (i 0).val = n * 10000 + (y 0).val) (h1 : (i 1).val = (y 1).val) :
    k0_pay1 (F := Ideal) x0 x1 y = dense X W i := by
  obtain ⟨p, q, rfl⟩ : ∃ (p : Fin 10000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext h1
  subst hs
  rw [first_apply]
  refine Eq.trans ?_ (StackMember.dotGeneral_plain_apply none X W r s).symm
  refine Finset.sum_congr rfl fun c _ => ?_
  rw [hx (ix2 p c) (ix2 r c) h0 rfl, hw]

/-- The second body, on rows n·10000 … of `Y` and on the weights `W`, stores block n of `dense (clamp Y) W`. -/
theorem second_block (Y : FVec Ideal S100000x128 .f32) (W : FVec Ideal S128x128 .f32)
    (x0 : Vec Ideal S10000x128 .f32) (x1 : Vec Ideal S128x128 .f32) (n : Nat)
    (hx : ∀ (y : S10000x128.Idx) (i : S100000x128.Idx), (i 0).val = n * 10000 + (y 0).val → (i 1).val = (y 1).val → x0 y = Y i)
    (hw : ∀ y : S128x128.Idx, x1 y = W y)
    (y : S10000x128.Idx) (i : S100000x128.Idx) (h0 : (i 0).val = n * 10000 + (y 0).val) (h1 : (i 1).val = (y 1).val) :
    k1_pay1 (F := Ideal) x0 x1 y = dense (clamp Y) W i := by
  obtain ⟨p, q, rfl⟩ : ∃ (p : Fin 10000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext h1
  subst hs
  rw [second_apply]
  refine Eq.trans ?_ (StackMember.dotGeneral_plain_apply none (clamp Y) W r s).symm
  refine Finset.sum_congr rfl fun c _ => ?_
  rw [hx (ix2 p c) (ix2 r c) h0 rfl, hw]
  rfl

end Cert.KernelIdeal.BlockProduct

end
-- ==== Proof.RegionArrays.lean ====
/-
  The output array of each of the two Pallas calls, as one function of the arrays the call finds.

  Each call runs its body at ten grid points; point t is handed rows t·10000 … t·10000 + 9999 of the call's first
  operand and the whole 128 × 128 weight matrix, and writes rows t·10000 … of the output. Since entry (r, q) of a
  rows-by-columns product depends on row r of the left operand only, the block a point writes is that block of the
  product of the WHOLE operand by the weights; the ten blocks tile the 100000 rows, so after the call the output array
  is the whole product: `dense X W` for the first call, `dense (clamp Y) W` for the second (whose body clamps its rows
  below at zero before multiplying). Both are stated at any contents `V` of the buffers at the call's entry.
-/
import proofs.«141415_j5342939316652_2_alg».proof.Proof.Gen.KernelIdeal.Frame
import proofs.«141415_j5342939316652_2_alg».proof.Proof.BlockProduct
import Idealize.ShloMosaic.Lib.Pipeline.Value
import Idealize.ShloMosaic.Lib.ValueIdx

set_option maxRecDepth 16384

noncomputable section

namespace Cert.KernelIdeal.RegionArrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.BlockProduct

variable (V : (c : Dev nD) → (b : Ref sig .tc) → Buf (Elt Ideal) ((c : Thread nD τ).loc b))

/-- The bodies load and store whole staging buffers: at offsets zero on both axes. -/
theorem zero_offsets : (![0, 0] : Fin 2 → Nat) = fun _ => 0 := funext fun a => by fin_cases a <;> rfl

/-! ## Pallas call 0 -/

/-- The printed index maps of call 0, decided over its ten grid points: the row-block windows (input rows and output) sit
    at block `t` of the row axis, the weight window at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row-block input at point `t` is rows t·10000 … t·10000 + 9999 of the input array as the call finds it. -/
theorem rows0 (c : Dev nD) (t : Fin cfg0.N) (y : S10000x128.Idx) (i : S100000x128.Idx)
    (h0 : (i 0).val = t.val * 10000 + (y 0).val) (h1 : (i 1).val = (y 1).val) :
    iblk0 V c 0 t y = V c main_arg0 i := by
  obtain ⟨e0, e1, -, -, -, -⟩ := idx_facts0 t
  show V c main_arg0 (((cfg0.win 0).blk t).view.emb y) = V c main_arg0 i
  refine congrArg _ ?_
  funext a; apply Fin.ext
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The weight input at every point is the whole weight matrix. -/
theorem weights0 (c : Dev nD) (t : Fin cfg0.N) (y : S128x128.Idx) :
    iblk0 V c 1 t y = V c main_arg4 y := by
  obtain ⟨-, -, e2, e3, -, -⟩ := idx_facts0 t
  show V c main_arg4 (((cfg0.win 1).blk t).view.emb y) = V c main_arg4 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point `t` writes back is block `t` of the whole product. -/
theorem flushed0 (c : Dev nD) (t : Fin cfg0.N) :
    (dat0 V c).flushed 2 t = ((cfg0.win 2).blk t).view.read (Elt Ideal) (dense (V c main_arg0) (V c main_arg4)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨-, -, -, -, e4, e5⟩ := idx_facts0 t
  funext j
  show k0_pay1 (iblk0 V c 0 t) (iblk0 V c 1 t) j = (dense (V c main_arg0) (V c main_arg4)) (((cfg0.win 2).blk t).view.emb j)
  refine first_block (V c main_arg0) (V c main_arg4) (iblk0 V c 0 t) (iblk0 V c 1 t) t.val
    (rows0 V c t) (weights0 V c t) j _ ?_ ?_
  · show win0_2.index t (0 : Fin 2) * 10000 + 1 * (j 0).val = t.val * 10000 + (j 0).val; omega
  · show win0_2.index t (1 : Fin 2) * 128 + 1 * (j 1).val = (j 1).val; omega

/-- An index of the output array lies in point `t`'s block iff each coordinate lies in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The ten row blocks cover the output array: row r lies in block r / 10000. -/
theorem cover0 (i : S100000x128.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 128 := (i 1).isLt
  let t : Fin cfg0.N := ⟨(i 0).val / 10000, by show _ < grid0.N; omega⟩
  obtain ⟨-, -, -, -, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after call 0: the whole product, as one array. -/
theorem array0 (c : Dev nD) : (dat0 V c).arrAt 2 cfg0.N = dense (V c main_arg0) (V c main_arg4) :=
  (dat0 V c).arrAt_eq_of_cover 2 (dense (V c main_arg0) (V c main_arg4)) (fun t _ => flushed0 V c t) cover0

/-! ## Pallas call 1 -/

/-- The printed index maps of call 1, decided over its ten grid points: the row-block windows (input rows and output) sit
    at block `t` of the row axis, the weight window at its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row-block input at point `t` is rows t·10000 … t·10000 + 9999 of the input array as the call finds it. -/
theorem rows1 (c : Dev nD) (t : Fin cfg1.N) (y : S10000x128.Idx) (i : S100000x128.Idx)
    (h0 : (i 0).val = t.val * 10000 + (y 0).val) (h1 : (i 1).val = (y 1).val) :
    iblk1 V c 0 t y = V c main_v13 i := by
  obtain ⟨e0, e1, -, -, -, -⟩ := idx_facts1 t
  show V c main_v13 (((cfg1.win 0).blk t).view.emb y) = V c main_v13 i
  refine congrArg _ ?_
  funext a; apply Fin.ext
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- The weight input at every point is the whole weight matrix. -/
theorem weights1 (c : Dev nD) (t : Fin cfg1.N) (y : S128x128.Idx) :
    iblk1 V c 1 t y = V c main_arg5 y := by
  obtain ⟨-, -, e2, e3, -, -⟩ := idx_facts1 t
  show V c main_arg5 (((cfg1.win 1).blk t).view.emb y) = V c main_arg5 y
  refine congrArg _ ?_
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- What point `t` writes back is block `t` of the whole product. -/
theorem flushed1 (c : Dev nD) (t : Fin cfg1.N) :
    (dat1 V c).flushed 2 t = ((cfg1.win 2).blk t).view.read (Elt Ideal) (dense (clamp (V c main_v13)) (V c main_arg5)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  obtain ⟨-, -, -, -, e4, e5⟩ := idx_facts1 t
  funext j
  show k1_pay1 (iblk1 V c 0 t) (iblk1 V c 1 t) j = (dense (clamp (V c main_v13)) (V c main_arg5)) (((cfg1.win 2).blk t).view.emb j)
  refine second_block (V c main_v13) (V c main_arg5) (iblk1 V c 0 t) (iblk1 V c 1 t) t.val
    (rows1 V c t) (weights1 V c t) j _ ?_ ?_
  · show win1_2.index t (0 : Fin 2) * 10000 + 1 * (j 0).val = t.val * 10000 + (j 0).val; omega
  · show win1_2.index t (1 : Fin 2) * 128 + 1 * (j 1).val = (j 1).val; omega

/-- An index of the output array lies in point `t`'s block iff each coordinate lies in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v14).slice (win1_2.rect t)).set ↔ _
  rw [View.set_slice_whole, Rect.mem_set_unit]
  exact Iff.rfl

/-- The ten row blocks cover the output array: row r lies in block r / 10000. -/
theorem cover1 (i : S100000x128.Idx) :
    ∃ t : Fin cfg1.N, (cfg1.win 2).flush t = true ∧ i ∈ ((cfg1.win 2).blk t).view.set := by
  have hN : grid1.N = 10 := N_1
  have hi0 : (i 0).val < 100000 := (i 0).isLt
  have hi1 : (i 1).val < 128 := (i 1).isLt
  let t : Fin cfg1.N := ⟨(i 0).val / 10000, by show _ < grid1.N; omega⟩
  obtain ⟨-, -, -, -, e4, e5⟩ := idx_facts1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after call 1: the whole product, as one array. -/
theorem array1 (c : Dev nD) : (dat1 V c).arrAt 2 cfg1.N = dense (clamp (V c main_v13)) (V c main_arg5) :=
  (dat1 V c).arrAt_eq_of_cover 2 (dense (clamp (V c main_v13)) (V c main_arg5)) (fun t _ => flushed1 V c t) cover1

end Cert.KernelIdeal.RegionArrays

end
-- ==== Proof.Network.lean ====
/-
  The two-layer graph convolution as one function of the six argument arrays, on the extended reals.

  A layer multiplies the node features by a weight matrix (`dense`), then propagates along the edges: edge e carries
  vals[e] · h[cols[e]] (a negative column index counted from the end) and the messages are summed into rows[e]
  (`propagate`: gather, scale, scatter-add into zeros), then clamps below at zero (`clamp`). The network is two layers.
-/
import proofs.«141415_j5342939316652_2_alg».proof.Proof.BlockProduct

noncomputable section

namespace Cert.KernelIdeal.Network

open Idealize.ShloMosaic Cert.KernelIdeal Cert.KernelIdeal.Gen Cert.KernelIdeal.BlockProduct

/-- One propagation along the edges: out[r] = Σ over the edges e with rows[e] = r of vals[e] · h[cols[e]], written
    with the host's own operations — the column indices wrapped when negative and laid out as a column of 1-vectors, the
    rows of `h` gathered, each scaled by its edge's value, and the scaled rows scatter-added into a zero array. -/
def propagate (rows cols : IVec S1600000 32) (vals : FVec Ideal S1600000 .f32) (h : FVec Ideal S100000x128 .f32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The features after the first layer's propagation, before its clamp. -/
def hidden (x : FVec Ideal S100000x128 .f32) (rows cols : IVec S1600000 32) (vals : FVec Ideal S1600000 .f32)
    (w1 : FVec Ideal S128x128 .f32) : FVec Ideal S100000x128 .f32 :=
  propagate rows cols vals (dense x w1)

/-- The network's result: clamp ∘ propagate ∘ (· W2) ∘ clamp ∘ propagate ∘ (· W1). -/
def network (x : FVec Ideal S100000x128 .f32) (rows cols : IVec S1600000 32) (vals : FVec Ideal S1600000 .f32)
    (w1 w2 : FVec Ideal S128x128 .f32) : FVec Ideal S100000x128 .f32 :=
  clamp (propagate rows cols vals (dense (clamp (hidden x rows cols vals w1)) w2))

end Cert.KernelIdeal.Network

end
-- ==== Proof.WholeRun.lean ====
/-
  The idealized kernel program's run with its RESULT named, and that result as the network of the arguments.

  The program is: Pallas call 0 (features × W1), a stretch of host operations (the first propagation), Pallas call 1
  (clamp, then × W2), a second stretch (the second propagation) and the final clamp. Every weakly fair execution ends
  with each unscoped buffer at the contents the segments leave in turn; read at the result buffer, those contents are,
  stage by stage: the whole product after call 0, its propagation, the whole product of the clamped propagation after
  call 1, its propagation, and the clamp of that — the network.
-/
import proofs.«141415_j5342939316652_2_alg».proof.Proof.Gen.KernelIdeal.Frame
import proofs.«141415_j5342939316652_2_alg».proof.Proof.RegionArrays
import proofs.«141415_j5342939316652_2_alg».proof.Proof.Network
import Idealize.ShloMosaic.Lib.StableHlo.Run

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment's
    contents `W5` and the six argument arrays as launched: the segments' run, its last thread state read against the
    final state at the result buffer as well as at the arguments. -/
theorem run_named : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Run

/-! ## The result buffer, stage by stage (at the extended reals) -/

section Value

variable (m : (ℓ : Loc nD τ sig) → Buf (Elt Ideal) ℓ) (ρ : Dev nD → PrngReg)
open Cert.KernelIdeal.BlockProduct Cert.KernelIdeal.Network Cert.KernelIdeal.RegionArrays

/-- Call 0 leaves a buffer that is none of its three arrays as launched. -/
theorem after_call0_other (c : Dev nD) (b : Ref sig .tc) (hb : ∀ w, Pipeline.arrRef spec0 w ≠ b) :
    W1 m ρ c (Proc.devRef .tc b) = m ((c.tc : Thread nD τ).loc b) :=
  W1_of_ne m ρ c b hb

/-- After call 0 its output array is the features times W1. -/
theorem after_call0_out (c : Dev nD) :
    W1 m ρ c (Proc.devRef .tc main_v0) = dense (m ((c.tc : Thread nD τ).loc main_arg0)) (m ((c.tc : Thread nD τ).loc main_arg4)) :=
  (W1_arr m ρ c 2).trans (array0 (V0 m ρ) c)

/-- The first stretch of host operations leaves the first propagation in its last buffer … -/
theorem after_stretch1_out (c : Dev nD) :
    W2 m ρ c (Proc.devRef .tc main_v13) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W1 m ρ c) (Proc.devRef .tc main_v13) = _
  after_results
  rw [after_call0_out, after_call0_other m ρ c main_arg1 (by decide), after_call0_other m ρ c main_arg2 (by decide),
    after_call0_other m ρ c main_arg3 (by decide)]
  rfl

/-- … and writes none of the argument arrays the later segments read. -/
theorem after_stretch1_arg1 (c : Dev nD) : W2 m ρ c (Proc.devRef .tc main_arg1) = (m ((c.tc : Thread nD τ).loc main_arg1)) := by
  show StableHlo.after hostOps1 (W1 m ρ c) (Proc.devRef .tc main_arg1) = _
  after_results
  exact after_call0_other m ρ c main_arg1 (by decide)
theorem after_stretch1_arg2 (c : Dev nD) : W2 m ρ c (Proc.devRef .tc main_arg2) = (m ((c.tc : Thread nD τ).loc main_arg2)) := by
  show StableHlo.after hostOps1 (W1 m ρ c) (Proc.devRef .tc main_arg2) = _
  after_results
  exact after_call0_other m ρ c main_arg2 (by decide)
theorem after_stretch1_arg3 (c : Dev nD) : W2 m ρ c (Proc.devRef .tc main_arg3) = (m ((c.tc : Thread nD τ).loc main_arg3)) := by
  show StableHlo.after hostOps1 (W1 m ρ c) (Proc.devRef .tc main_arg3) = _
  after_results
  exact after_call0_other m ρ c main_arg3 (by decide)
theorem after_stretch1_arg5 (c : Dev nD) : W2 m ρ c (Proc.devRef .tc main_arg5) = (m ((c.tc : Thread nD τ).loc main_arg5)) := by
  show StableHlo.after hostOps1 (W1 m ρ c) (Proc.devRef .tc main_arg5) = _
  after_results
  exact after_call0_other m ρ c main_arg5 (by decide)

/-- After call 1 its output array is the clamped first propagation times W2. -/
theorem after_call1_out (c : Dev nD) :
    W3 m ρ c (Proc.devRef .tc main_v14)
      = dense (clamp (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg5)) := by
  refine (W3_arr m ρ c 2).trans ((array1 (V2 m ρ) c).trans ?_)
  show dense (clamp (W2 m ρ c (Proc.devRef .tc main_v13))) (W2 m ρ c (Proc.devRef .tc main_arg5)) = _
  rw [after_stretch1_out, after_stretch1_arg5]

/-- Call 1 leaves the edge arrays as launched. -/
theorem after_call1_arg1 (c : Dev nD) : W3 m ρ c (Proc.devRef .tc main_arg1) = (m ((c.tc : Thread nD τ).loc main_arg1)) :=
  (W3_of_ne m ρ c main_arg1 (by decide)).trans (after_stretch1_arg1 m ρ c)
theorem after_call1_arg2 (c : Dev nD) : W3 m ρ c (Proc.devRef .tc main_arg2) = (m ((c.tc : Thread nD τ).loc main_arg2)) :=
  (W3_of_ne m ρ c main_arg2 (by decide)).trans (after_stretch1_arg2 m ρ c)
theorem after_call1_arg3 (c : Dev nD) : W3 m ρ c (Proc.devRef .tc main_arg3) = (m ((c.tc : Thread nD τ).loc main_arg3)) :=
  (W3_of_ne m ρ c main_arg3 (by decide)).trans (after_stretch1_arg3 m ρ c)

/-- The second stretch of host operations leaves the second propagation in its last buffer. -/
theorem after_stretch2_out (c : Dev nD) :
    W4 m ρ c (Proc.devRef .tc main_v27)
      = propagate (m ((c.tc : Thread nD τ).loc main_arg1)) (m ((c.tc : Thread nD τ).loc main_arg2)) (m ((c.tc : Thread nD τ).loc main_arg3)) (dense (clamp (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg5))) := by
  show StableHlo.after hostOps2 (W3 m ρ c) (Proc.devRef .tc main_v27) = _
  after_results
  rw [after_call1_out, after_call1_arg1, after_call1_arg2, after_call1_arg3]
  rfl

/-- The last three host operations clamp the buffer before them at zero, whatever the contents they start from. -/
theorem final_clamp (Wx : Valuation τ sig (Elt Ideal)) :
    StableHlo.after hostOps2_1 Wx (Proc.devRef .tc main_v28) = clamp (Wx (Proc.devRef .tc main_v27)) := by
  after_results
  rfl

/-- The result buffer ends at the network of the arguments. -/
theorem result_value (c : Dev nD) :
    W5 m ρ c (Proc.devRef .tc main_v28) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (final_clamp (W4 m ρ c)).trans ?_
  rw [after_stretch2_out]
  rfl

/-- THE RUN, READ: every weakly fair execution of the idealized kernel program terminates, nothing faulting, with the
    result buffer at the network of the launch contents of the six arguments, and the arguments unchanged. -/
theorem run : θ_run defs (onTc (τ := τ) (main (F := Ideal))) ⟨m, fun _ => 0, ρ⟩ (fun r => ∀ c : Dev nD,
      r.2.mem ((c.tc : Thread nD τ).loc main_v28) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_named m ρ)

end Value

end Cert.KernelIdeal.WholeRun

end
-- ==== Proof.ReferenceNetwork.lean ====
/-
  The reference program's result is the same network of the arguments.

  The reference computes, with the host's operations alone, features × W1, the propagation along the edges, the clamp
  at zero, × W2, the propagation and the clamp: operation by operation the network's own text, its two matrix products
  the plain rows-by-columns product over the whole 100000 rows.
-/
import proofs.«141415_j5342939316652_2_alg».proof.Proof.Gen.ReferenceIdeal.Read
import proofs.«141415_j5342939316652_2_alg».proof.Proof.Network

noncomputable section

namespace Cert.ReferenceIdeal.RefValue

open Idealize.ShloMosaic Cert.ReferenceIdeal Cert.ReferenceIdeal.Gen

/-- The reference's last stage, as a function of the six arguments, is the network. -/
theorem result_is_network (x0 : FVec Ideal S100000x128 .f32) (x1 x2 : IVec S1600000 32) (x3 : FVec Ideal S1600000 .f32)
    (x4 x5 : FVec Ideal S128x128 .f32) :
    Read.val_main_v29 (F := Ideal) x0 x1 x2 x3 x4 x5 = Cert.KernelIdeal.Network.network x0 x1 x2 x3 x4 x5 := by
  unfold Read.val_main_v29 Read.val_main_v28 Read.val_main_v27 Read.val_main_v26 Read.val_main_v25 Read.val_main_v24
    Read.val_main_v23 Read.val_main_v22 Read.val_main_v21 Read.val_main_v20 Read.val_main_v19 Read.val_main_v18
    Read.val_main_v17 Read.val_main_v16 Read.val_main_v15 Read.val_main_v14 Read.val_main_v13 Read.val_main_v12
    Read.val_main_v11 Read.val_main_v10 Read.val_main_v9 Read.val_main_v8 Read.val_main_v7 Read.val_main_v6
    Read.val_main_v5 Read.val_main_v4 Read.val_main_v3 Read.val_main_v2 Read.val_main_v1 Read.val_main_v0
    Read.val_main_c Read.val_main_c_0 Read.val_main_c_1 Read.val_main_c_2 Read.val_main_cst Read.val_main_cst_3
    Read.val_main_call0_v0 Read.val_main_call1_v0 Read.val_main_call0_cst Read.val_main_call1_cst
  unfold Cert.KernelIdeal.Network.network Cert.KernelIdeal.Network.hidden Cert.KernelIdeal.Network.propagate
  rfl

end Cert.ReferenceIdeal.RefValue

end
-- ==== Proof.lean ====
/-
  The certificate of a two-layer graph convolution: relu(A · (relu(A · (X W1)) W2)), with A the sparse adjacency given
  as edge lists (rows, cols, vals), X of 100000 nodes by 128 features and W1, W2 of 128 by 128.

  The kernel program computes the two dense products in Pallas calls over ten row blocks of 10000 rows (the second call
  clamping its input rows at zero first, which is the first layer's relu) and leaves the propagation along the edges
  and the last relu to host operations; the reference computes everything with host operations. On the extended reals
  a row block of a rows-by-columns product is the product of that row block, so each call's output array is the whole
  product (Proof/RegionArrays.lean over Proof/BlockProduct.lean), the kernel program's result is the network of its
  arguments (Proof/WholeRun.lean, the network itself in Proof/Network.lean), and the reference's result is the same
  network (Proof/ReferenceNetwork.lean). No law of arithmetic beyond the definition of the matrix product is used, so
  the finiteness of the inputs is never opened. The idealization rewrote no operation, so `preserves` is `True`.
-/
import proofs.«141415_j5342939316652_2_alg».proof.Defs
import proofs.«141415_j5342939316652_2_alg».proof.Proof.Gen.Kernel
import proofs.«141415_j5342939316652_2_alg».proof.Proof.Gen.Kernel.Skeleton
import proofs.«141415_j5342939316652_2_alg».proof.Proof.Gen.Kernel.Launch
import proofs.«141415_j5342939316652_2_alg».proof.Proof.Gen.Kernel.Points
import proofs.«141415_j5342939316652_2_alg».proof.Proof.Gen.Kernel.Frame
import proofs.«141415_j5342939316652_2_alg».proof.Proof.Gen.KernelIdeal
import proofs.«141415_j5342939316652_2_alg».proof.Proof.Gen.KernelIdeal.Skeleton
import proofs.«141415_j5342939316652_2_alg».proof.Proof.Gen.KernelIdeal.Launch
import proofs.«141415_j5342939316652_2_alg».proof.Proof.Gen.KernelIdeal.Points
import proofs.«141415_j5342939316652_2_alg».proof.Proof.Gen.KernelIdeal.Frame
import proofs.«141415_j5342939316652_2_alg».proof.Proof.Gen.ReferenceIdeal
import proofs.«141415_j5342939316652_2_alg».proof.Proof.Gen.Pre_finite_inputs
import proofs.«141415_j5342939316652_2_alg».proof.Proof.Gen.ReferenceIdeal.Run
import proofs.«141415_j5342939316652_2_alg».proof.Proof.Gen.ReferenceIdeal.Read
import proofs.«141415_j5342939316652_2_alg».proof.Proof.WholeRun
import proofs.«141415_j5342939316652_2_alg».proof.Proof.ReferenceNetwork
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the network of those arguments. -/
theorem algebraic : Cert.algebraic_KernelIdeal_ReferenceIdeal := by
  intro m ρ m' ρ' _ hagree
  refine ⟨_, Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq _ _ _ _ _ _).trans
    ((Cert.ReferenceIdeal.RefValue.result_is_network _ _ _ _ _ _).trans ?_)
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
